-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S50257x128 : Shape := ⟨2, ![50257, 128]⟩
abbrev S128x50257 : Shape := ⟨2, ![128, 50257]⟩
abbrev S_ : Shape := ⟨0, ![]⟩

class Facts : Prop where
  bcast_S_S50257x128 : S_.BroadcastsInDim S50257x128 (![] : Fin 0 → Fin S50257x128.rank)
  reducesTo_S50257x128_S_d0_1 : S50257x128.ReducesTo [0, 1] S_
  h_S_ : 0 < S_.numel
  bcast_S_S128x50257 : S_.BroadcastsInDim S128x50257 (![] : Fin 0 → Fin S128x50257.rank)
  reducesTo_S128x50257_S_d0_1 : S128x50257.ReducesTo [0, 1] S_

variable [Facts]

def fn {F : FTy → Type} [FloatOps F] (main_arg0 : IVec S4096x8 32) (main_arg1 : FVec F S50257x128 .f32) (main_arg2 : FVec F S128x50257 .f32) : IVec S_ 1 :=
  let main_v0 : FVec F S50257x128 .f32 := Host.absf main_arg1
  let main_cst : FVec F S_ .f32 := constant S_ .f32 0x7F800000#32
  let main_v1 : FVec F S50257x128 .f32 := broadcastInDim S50257x128 ![] bcast_S_S50257x128 main_cst
  let main_v2 : IVec S50257x128 1 := cmpf .olt main_v0 main_v1
  let main_c : IVec S_ 1 := constantI S_ 1 1#1
  let main_v3 : IVec S_ 1 := (fun x v => Host.reduce IntOp.andi x v reducesTo_S50257x128_S_d0_1 h_S_) main_v2 main_c
  let main_v4 : FVec F S128x50257 .f32 := Host.absf main_arg2
  let main_cst_0 : FVec F S_ .f32 := constant S_ .f32 0x7F800000#32
  let main_v5 : FVec F S128x50257 .f32 := broadcastInDim S128x50257 ![] bcast_S_S128x50257 main_cst_0
  let main_v6 : IVec S128x50257 1 := cmpf .olt main_v4 main_v5
  let main_c_1 : IVec S_ 1 := constantI S_ 1 1#1
  let main_v7 : IVec S_ 1 := (fun x v => Host.reduce IntOp.andi x v reducesTo_S128x50257_S_d0_1 h_S_) main_v6 main_c_1
  let main_v8 : IVec S_ 1 := andi main_v3 main_v7
  main_v8
-- ==== Kernel.lean ====
abbrev S4096x8 : Shape := ⟨2, ![4096, 8]⟩
abbrev S50257x128 : Shape := ⟨2, ![50257, 128]⟩
abbrev S128x50257 : Shape := ⟨2, ![128, 50257]⟩
abbrev S_ : Shape := ⟨0, ![]⟩
abbrev S4096x8x1 : Shape := ⟨3, ![4096, 8, 1]⟩
abbrev S1 : Shape := ⟨1, ![1]⟩
abbrev S1x1x1 : Shape := ⟨3, ![1, 1, 1]⟩
abbrev S4096x8x128 : Shape := ⟨3, ![4096, 8, 128]⟩
abbrev S4096x128 : Shape := ⟨2, ![4096, 128]⟩
abbrev S4096x50257 : Shape := ⟨2, ![4096, 50257]⟩
abbrev S1024x128 : Shape := ⟨2, ![1024, 128]⟩
abbrev S128x4096 : Shape := ⟨2, ![128, 4096]⟩
abbrev S1024x4096 : Shape := ⟨2, ![1024, 4096]⟩

abbrev nBuf : Space → Nat
  | .hbm => 30
  | .vmem => 6
  | .smem => 0
  | _ => 0

abbrev bufTy : (tb : Table) → Fin (tcTables nBuf tb) → BufTy
  | .hbm, ⟨0, _⟩ => ⟨S4096x8, .i32⟩
  | .hbm, ⟨1, _⟩ => ⟨S50257x128, .f32⟩
  | .hbm, ⟨2, _⟩ => ⟨S128x50257, .f32⟩
  | .hbm, ⟨3, _⟩ => ⟨S_, .i32⟩
  | .hbm, ⟨4, _⟩ => ⟨S4096x8, .i32⟩
  | .hbm, ⟨5, _⟩ => ⟨S4096x8, .i1⟩
  | .hbm, ⟨6, _⟩ => ⟨S_, .i32⟩
  | .hbm, ⟨7, _⟩ => ⟨S4096x8, .i32⟩
  | .hbm, ⟨8, _⟩ => ⟨S4096x8, .i32⟩
  | .hbm, ⟨9, _⟩ => ⟨S4096x8, .i32⟩
  | .hbm, ⟨10, _⟩ => ⟨S4096x8x1, .i32⟩
  | .hbm, ⟨11, _⟩ => ⟨S1, .i32⟩
  | .hbm, ⟨12, _⟩ => ⟨S_, .i32⟩
  | .hbm, ⟨13, _⟩ => ⟨S4096x8x1, .i32⟩
  | .hbm, ⟨14, _⟩ => ⟨S4096x8x1, .i1⟩
  | .hbm, ⟨15, _⟩ => ⟨S1x1x1, .i32⟩
  | .hbm, ⟨16, _⟩ => ⟨S4096x8x1, .i32⟩
  | .hbm, ⟨17, _⟩ => ⟨S4096x8x1, .i1⟩
  | .hbm, ⟨18, _⟩ => ⟨S4096x8x1, .i1⟩
  | .hbm, ⟨19, _⟩ => ⟨S_, .i1⟩
  | .hbm, ⟨20, _⟩ => ⟨S4096x8, .i1⟩
  | .hbm, ⟨21, _⟩ => ⟨S4096x8x128, .f32⟩
  | .hbm, ⟨22, _⟩ => ⟨S4096x8x128, .i1⟩
  | .hbm, ⟨23, _⟩ => ⟨S_, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x128, .f32⟩
  | .hbm, ⟨28, _⟩ => ⟨S4096x128, .bf16⟩
  | .hbm, ⟨29, _⟩ => ⟨S4096x50257, .f32⟩
  | .local _ .vmem, ⟨0, _⟩ => ⟨S1024x128, .bf16⟩
  | .local _ .vmem, ⟨1, _⟩ => ⟨S1024x128, .bf16⟩
  | .local _ .vmem, ⟨2, _⟩ => ⟨S128x4096, .f32⟩
  | .local _ .vmem, ⟨3, _⟩ => ⟨S128x4096, .f32⟩
  | .local _ .vmem, ⟨4, _⟩ => ⟨S1024x4096, .f32⟩
  | .local _ .vmem, ⟨5, _⟩ => ⟨S1024x4096, .f32⟩
  | _, _ => ⟨S4096x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  h_S_ : 0 < S_.numel
  bcast_S4096x8_S4096x8x128_0_1 : S4096x8.BroadcastsInDim S4096x8x128 (![0, 1] : Fin 2 → Fin S4096x8x128.rank)
  bcast_S_S4096x8x128 : S_.BroadcastsInDim S4096x8x128 (![] : Fin 0 → Fin S4096x8x128.rank)
  reducesTo_S4096x8x128_S4096x128_d1 : S4096x8x128.ReducesTo [1] S4096x128
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x4096_S1024x4096_0_0 : ∀ a, (![0, 0] : Fin 2 → Nat) a + S1024x4096.size a ≤ S1024x4096.size a
  h_S1024x4096 : 0 < S1024x4096.numel
  gather_S50257x128_S4096x8x1_S4096x8x128_2_0_n_n_0_2_1128_wf : GatherDims.WF S50257x128 S4096x8x1 S4096x8x128 [2] [0] [] [0] [] 2 ![1, 128]
  dot_S1024x128_S128x4096_S1024x4096_1_0_0_1_n_n_wf : DotDims.WF S1024x128 S128x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x4096.size a < S128x50257.size a
  hwx0_1 : ∀ i : grid0.Coords, EltTy.bits .f32 = 32 ∨ (Rect.unit (s := S128x50257) (fun a => cc0_transform_1 i a * S128x4096.size a) (fun a => (Pipeline.Clip.of (cc0_transform_1 i a) (S128x4096.size a) (S128x50257.size a)).extent (S128x4096.size a)) fun a => Pipeline.Clip.inb (Pipeline.Clip.ok_of (hstart0_1 i a))).WholeWords (EltTy.packing .f32)
  hwxs0_1 : ∀ i : grid0.Coords, EltTy.bits .f32 = 32 ∨ (Rect.unit (s := S128x4096) (fun _ => 0) (fun a => (Pipeline.Clip.of (cc0_transform_1 i a) (S128x4096.size a) (S128x50257.size a)).extent (S128x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x4096.size a < S4096x50257.size a
  hwx0_2 : ∀ i : grid0.Coords, EltTy.bits .f32 = 32 ∨ (Rect.unit (s := S4096x50257) (fun a => cc0_transform_2 i a * S1024x4096.size a) (fun a => (Pipeline.Clip.of (cc0_transform_2 i a) (S1024x4096.size a) (S4096x50257.size a)).extent (S1024x4096.size a)) fun a => Pipeline.Clip.inb (Pipeline.Clip.ok_of (hstart0_2 i a))).WholeWords (EltTy.packing .f32)
  hwxs0_2 : ∀ i : grid0.Coords, EltTy.bits .f32 = 32 ∨ (Rect.unit (s := S1024x4096) (fun _ => 0) (fun a => (Pipeline.Clip.of (cc0_transform_2 i a) (S1024x4096.size a) (S4096x50257.size a)).extent (S1024x4096.size a)) fun a => (Nat.zero_add _).trans_le (Pipeline.Clip.extent_le (Pipeline.Clip.ok_of (hstart0_2 i a)))).WholeWords (EltTy.packing .f32)

variable [Facts₀]

def gather_S50257x128_S4096x8x1_S4096x8x128_2_0_n_n_0_2_1128 : GatherDims S50257x128 S4096x8x1 S4096x8x128 where
  offsetDims := [2]
  collapsedSliceDims := [0]
  operandBatchingDims := []
  startIndicesBatchingDims := []
  startIndexMap := [0]
  indexVectorDim := 2
  sliceSizes := ![1, 128]
  wf := gather_S50257x128_S4096x8x1_S4096x8x128_2_0_n_n_0_2_1128_wf
def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S128x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S1024x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8 : Shape := ⟨2, ![4096, 8]⟩
abbrev S50257x128 : Shape := ⟨2, ![50257, 128]⟩
abbrev S128x50257 : Shape := ⟨2, ![128, 50257]⟩
abbrev S_ : Shape := ⟨0, ![]⟩
abbrev S4096x8x1 : Shape := ⟨3, ![4096, 8, 1]⟩
abbrev S1 : Shape := ⟨1, ![1]⟩
abbrev S1x1x1 : Shape := ⟨3, ![1, 1, 1]⟩
abbrev S4096x8x128 : Shape := ⟨3, ![4096, 8, 128]⟩
abbrev S4096x128 : Shape := ⟨2, ![4096, 128]⟩
abbrev S4096x50257 : Shape := ⟨2, ![4096, 50257]⟩

abbrev nBuf : Space → Nat
  | .hbm => 29
  | .vmem => 0
  | .smem => 0
  | _ => 0

abbrev bufTy : (tb : Table) → Fin (tcTables nBuf tb) → BufTy
  | .hbm, ⟨0, _⟩ => ⟨S4096x8, .i32⟩
  | .hbm, ⟨1, _⟩ => ⟨S50257x128, .f32⟩
  | .hbm, ⟨2, _⟩ => ⟨S128x50257, .f32⟩
  | .hbm, ⟨3, _⟩ => ⟨S_, .i32⟩
  | .hbm, ⟨4, _⟩ => ⟨S4096x8, .i32⟩
  | .hbm, ⟨5, _⟩ => ⟨S4096x8, .i1⟩
  | .hbm, ⟨6, _⟩ => ⟨S_, .i32⟩
  | .hbm, ⟨7, _⟩ => ⟨S4096x8, .i32⟩
  | .hbm, ⟨8, _⟩ => ⟨S4096x8, .i32⟩
  | .hbm, ⟨9, _⟩ => ⟨S4096x8, .i32⟩
  | .hbm, ⟨10, _⟩ => ⟨S4096x8x1, .i32⟩
  | .hbm, ⟨11, _⟩ => ⟨S1, .i32⟩
  | .hbm, ⟨12, _⟩ => ⟨S_, .i32⟩
  | .hbm, ⟨13, _⟩ => ⟨S4096x8x1, .i32⟩
  | .hbm, ⟨14, _⟩ => ⟨S4096x8x1, .i1⟩
  | .hbm, ⟨15, _⟩ => ⟨S1x1x1, .i32⟩
  | .hbm, ⟨16, _⟩ => ⟨S4096x8x1, .i32⟩
  | .hbm, ⟨17, _⟩ => ⟨S4096x8x1, .i1⟩
  | .hbm, ⟨18, _⟩ => ⟨S4096x8x1, .i1⟩
  | .hbm, ⟨19, _⟩ => ⟨S_, .i1⟩
  | .hbm, ⟨20, _⟩ => ⟨S4096x8, .i1⟩
  | .hbm, ⟨21, _⟩ => ⟨S4096x8x128, .f32⟩
  | .hbm, ⟨22, _⟩ => ⟨S4096x8x128, .i1⟩
  | .hbm, ⟨23, _⟩ => ⟨S_, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x128, .f32⟩
  | .hbm, ⟨28, _⟩ => ⟨S4096x50257, .f32⟩
  | _, _ => ⟨S4096x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩

abbrev nD : Nat := 1
abbrev τ : Topo := Topo.v7x

variable {F : FTy → Type} [FloatOps F]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  h_S_ : 0 < S_.numel
  bcast_S4096x8_S4096x8x128_0_1 : S4096x8.BroadcastsInDim S4096x8x128 (![0, 1] : Fin 2 → Fin S4096x8x128.rank)
  bcast_S_S4096x8x128 : S_.BroadcastsInDim S4096x8x128 (![] : Fin 0 → Fin S4096x8x128.rank)
  reducesTo_S4096x8x128_S4096x128_d1 : S4096x8x128.ReducesTo [1] S4096x128
  gather_S50257x128_S4096x8x1_S4096x8x128_2_0_n_n_0_2_1128_wf : GatherDims.WF S50257x128 S4096x8x1 S4096x8x128 [2] [0] [] [0] [] 2 ![1, 128]
  dot_S4096x128_S128x50257_S4096x50257_1_0_0_1_n_n_wf : DotDims.WF S4096x128 S128x50257 S4096x50257 [1] [0] [0] [1] [] []

variable [Facts₀]

def gather_S50257x128_S4096x8x1_S4096x8x128_2_0_n_n_0_2_1128 : GatherDims S50257x128 S4096x8x1 S4096x8x128 where
  offsetDims := [2]
  collapsedSliceDims := [0]
  operandBatchingDims := []
  startIndicesBatchingDims := []
  startIndexMap := [0]
  indexVectorDim := 2
  sliceSizes := ![1, 128]
  wf := gather_S50257x128_S4096x8x1_S4096x8x128_2_0_n_n_0_2_1128_wf
def dot_S4096x128_S128x50257_S4096x50257_1_0_0_1_n_n : DotDims S4096x128 S128x50257 S4096x50257 where
  lhsContracting := [1]
  rhsContracting := [0]
  lhsNonContracting := [0]
  rhsNonContracting := [1]
  lhsBatch := []
  rhsBatch := []
  wf := dot_S4096x128_S128x50257_S4096x50257_1_0_0_1_n_n_wf

class Facts : Prop extends Facts₀ where

variable [Facts]
-- ==== Proof.KernelTile.lean ====
/-
  The projection kernel, one grid point at a time, and the frame of the whole program.

  The grid has 13 column tiles (outer) by 4 row tiles (inner). At a point the body reads a 1024 x 128 tile of the
  bag-summed embeddings and a 128 x 4096 tile of the projection weights, multiplies them and stores the 1024 x 4096
  product into the output's tile. 50257 columns are 12 whole tiles of 4096 and one of 1105, so the last column tile of
  the weights and of the output overhangs its array: the fetch of the weights lands 1105 columns and leaves the rest
  of the buffer at contents nothing names, and the write-back of the output writes 1105 columns only.

  For the frame nothing has to be known about the product: the body reads its two input tiles, leaves them as it
  found them, and overwrites the output tile with something. So the output window is left unnamed, the weights' tile
  is described on the columns inside the array only, and the three argument arrays end as they began: the indices and
  the embedding table are staged by no window, the weights are an input window's array, which no write-back touches.
-/
import proofs.«168114_j27264452395031_2_alg».proof.Proof.Gen.Kernel.Frame
import proofs.«168114_j27264452395031_2_alg».proof.Proof.Gen.Kernel.Skeleton

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is its whole buffer -/

abbrev rEmb : Rect S1024x128 := Rect.unit (s := S1024x128) ![0, 0] S1024x128.size inb_S1024x128_S1024x128_0_0
abbrev rWts : Rect S128x4096 := Rect.unit (s := S128x4096) ![0, 0] S128x4096.size inb_S128x4096_S128x4096_0_0
abbrev rOut : Rect S1024x4096 := Rect.unit (s := S1024x4096) ![0, 0] S1024x4096.size inb_S1024x4096_S1024x4096_0_0

/-- What the output tile's buffer holds after the body, from the two input tiles: the one store, of the product. -/
def outTile (e : Vec F S1024x128 .bf16) (w : Vec F S128x4096 .f32) : Vec F S1024x4096 .f32 :=
  View.canon [⟨rOut, k0_pay1 (View.ld w rWts) (View.ld e rEmb)⟩]

/-- The one store covers the output tile's buffer. -/
theorem coverOut (p0 : Vec F S1024x4096 .f32) (y : S1024x4096.Idx) :
    ∃ pc ∈ ([⟨rOut, p0⟩] : List (View.Piece (Elt F) S1024x4096 .f32)), y ∈ pc.1.set :=
  View.cover_of_tiled [⟨rOut, p0⟩] S1024x4096.size (by rfl) y

/-! ## The body's triple -/

set_option maxHeartbeats 1000000 in
/-- The body on whole staging buffers, the embeddings' tile at `e`, the weights' tile at `w` and the output's at
    anything, ends with the two inputs as they were and the output's buffer at `outTile e w`. -/
theorem sound_kernel (c : Dev nD) (E : Set ℕ) (i : grid0.Coords)
    (arg2 : Memref sig .tc .vmem S1024x128 .bf16) (harg2 : arg2.IsWhole)
    (arg3 : Memref sig .tc .vmem S128x4096 .f32) (harg3 : arg3.IsWhole)
    (arg4 : Memref sig .tc .vmem S1024x4096 .f32) (harg4 : arg4.IsWhole)
    (e : Vec F S1024x128 .bf16) (w : Vec F S128x4096 .f32) (K : PUnit → sProp 𝕄) :
    iprop(owns (c : Thread nD τ) arg2 fullShare e ∗ owns (c : Thread nD τ) arg3 fullShare w ∗ (∃ d, owns (c : Thread nD τ) arg4 fullShare d)
        ∗ (iprop(owns (c : Thread nD τ) arg2 fullShare e ∗ owns (c : Thread nD τ) arg3 fullShare w ∗ owns (c : Thread nD τ) arg4 fullShare (outTile e w)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The proof data: the output tile forgotten -/

/-- The output window (2) is forgotten: nothing the frame says reads what the body leaves there. -/
def forgets0 : Fin 3 → Bool := fun w => w.val == 2

/-- The weights' tile at point `t` filled out, past the array's last column, with the zero word: a buffer content
    that agrees with every fetched one on the columns inside the array. -/
def wtsTile (c : Dev nD) (t : Fin cfg0.N) : S128x4096.Idx → Elt F .f32 :=
  win0_1.fill (grid0.coords t) (fun _ => Scalar.ofBits .f32 0#32) (iblk m c 1 t)

/-- The proof data of the one pipeline on core `c`: the arrays as the region finds them; after the body the
    embeddings' buffer at its tile, the weights' at its tile filled out, the output's unnamed; the class invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wtsTile m c t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wtsTile m c t := by dsimp only [dats]

/-- The embeddings' buffer holds its tile at every point, fetched there or not. -/
theorem before0_0 (c : Dev nD) (t : Fin cfg0.N) (d) : (dats m 0 c).before 0 t d = iblk m c 0 t :=
  before0_0_of m (dats m 0 c) (A_eq m c 0) (after0_0 m c) t d

/-- How the weights' tile is cut at the array's end depends on the point only through the tile's column index. -/
theorem clip_of_index (t t' : Fin cfg0.N) (h : (cfg0.win 1).index t = (cfg0.win 1).index t') :
    (cfg0.win 1).clip (cfg0.grid.coords t) = (cfg0.win 1).clip (cfg0.grid.coords t') := by
  funext a
  show Pipeline.Clip.of (cc0_transform_1 (grid0.coords t) a) (S128x4096.size a) (S128x50257.size a)
    = Pipeline.Clip.of (cc0_transform_1 (grid0.coords t') a) (S128x4096.size a) (S128x50257.size a)
  rw [show cc0_transform_1 (grid0.coords t) = cc0_transform_1 (grid0.coords t') from h]

/-- The weights' buffer holds, on the columns inside the array, its tile at every point, fetched there or not (the
    four row tiles of one column tile share one fetch), and `d` past the array's end. -/
theorem before0_1 (c : Dev nD) (t : Fin cfg0.N) (d) :
    (dats m 0 c).before 1 t d = win0_1.fill (grid0.coords t) d (iblk m c 1 t) :=
  ((dats m 0 c).before_in_eq_fetched 1 rfl (fun _ => rfl) (clip_of_index)
    (fun t => by rw [after0_1]; unfold wtsTile Dat.blockOf iblk; rw [A_eq]; exact win0_1.cut_fill _ _ _) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the weights' buffer stated on the columns inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win0_1.cut (grid0.coords t) (wtsTile m c t) = iblk m c 1 t from win0_1.cut_fill _ _ _]
    iexact H1
  iexists _; iexact H2

/-- The library's body obligation, the output window forgotten, the clipped windows loose. -/
theorem body_obligation (c : Dev nD) : BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
/-- Every weakly fair execution of @main terminates, every input array of the pipeline unchanged, nothing stated of
    the forgotten output, every other unscoped buffer as the region found it. -/
theorem run_main : θ_run defs (onTc (τ := τ) (main (F := F))) (s₀ m ρ) (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the index array and the embedding table are staged by no window and end as the region found them,
    which is as launched; the weights are an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Eq.mp (congrFun (((dats m 0 c).toRForget forgets0).ArrAt_in 1 rfl _) _) ((h c).1 1)).trans ((A_eq m c 1).trans (V_main_arg2 m c))⟩)
    (run_main m ρ)

end Cert.Kernel.Tile

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.IdealTile.lean ====
/-
  The projection kernel at the extended reals, one grid point at a time.

  The grid has 13 column tiles (outer) by 4 row tiles (inner). At a point the body reads a 1024 x 128 tile `e` of the
  bag-summed embeddings and a 128 x 4096 tile `w` of the projection weights and stores their product: entry (p, q) of
  the output tile is the sum over k of e[p, k] * w[k, q] (the two changes of float format are the identity here, and the
  product is accumulated from zero). 50257 columns are 12 whole tiles of 4096 and one of 1105: the last column tile of the
  weights and of the output overhangs its array. The fetch of such a weights tile lands 1105 columns and leaves the rest of
  the buffer at contents nothing names; the body multiplies all 4096 columns; the write-back writes 1105 columns only.
  Column q of the product reads column q of the weights and no other, so the columns written back do not depend on what
  the buffer held past the array's end: that is what lets the output tile be named on the columns inside the array.
-/
import proofs.«168114_j27264452395031_2_alg».proof.Proof.Gen.KernelIdeal.Frame
import proofs.«168114_j27264452395031_2_alg».proof.Proof.Gen.KernelIdeal.Skeleton
import proofs.«168114_j27264452395031_2_alg».proof.Proof.LibDotCols
import Idealize.ShloMosaic.Lib.ValueIdx
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is its whole buffer -/

abbrev rEmb : Rect S1024x128 := Rect.unit (s := S1024x128) ![0, 0] S1024x128.size inb_S1024x128_S1024x128_0_0
abbrev rWts : Rect S128x4096 := Rect.unit (s := S128x4096) ![0, 0] S128x4096.size inb_S128x4096_S128x4096_0_0
abbrev rOut : Rect S1024x4096 := Rect.unit (s := S1024x4096) ![0, 0] S1024x4096.size inb_S1024x4096_S1024x4096_0_0

/-- What the output tile's buffer holds after the body, from the two input tiles: the one store, of the product. -/
def outTile (e : Vec F S1024x128 .bf16) (w : Vec F S128x4096 .f32) : Vec F S1024x4096 .f32 :=
  View.canon [⟨rOut, k0_pay1 (View.ld w rWts) (View.ld e rEmb)⟩]

/-- The one store covers the output tile's buffer. -/
theorem coverOut (p0 : Vec F S1024x4096 .f32) (y : S1024x4096.Idx) :
    ∃ pc ∈ ([⟨rOut, p0⟩] : List (View.Piece (Elt F) S1024x4096 .f32)), y ∈ pc.1.set :=
  View.cover_of_tiled [⟨rOut, p0⟩] S1024x4096.size (by rfl) y

/-! ## The body's triple -/

set_option maxHeartbeats 1000000 in
/-- The body on whole staging buffers, the embeddings' tile at `e`, the weights' tile at `w` and the output's at
    anything, ends with the two inputs as they were and the output's buffer at `outTile e w`. -/
theorem sound_kernel (c : Dev nD) (E : Set ℕ) (i : grid0.Coords)
    (arg2 : Memref sig .tc .vmem S1024x128 .bf16) (harg2 : arg2.IsWhole)
    (arg3 : Memref sig .tc .vmem S128x4096 .f32) (harg3 : arg3.IsWhole)
    (arg4 : Memref sig .tc .vmem S1024x4096 .f32) (harg4 : arg4.IsWhole)
    (e : Vec F S1024x128 .bf16) (w : Vec F S128x4096 .f32) (K : PUnit → sProp 𝕄) :
    iprop(owns (c : Thread nD τ) arg2 fullShare e ∗ owns (c : Thread nD τ) arg3 fullShare w ∗ (∃ d, owns (c : Thread nD τ) arg4 fullShare d)
        ∗ (iprop(owns (c : Thread nD τ) arg2 fullShare e ∗ owns (c : Thread nD τ) arg3 fullShare w ∗ owns (c : Thread nD τ) arg4 fullShare (outTile e w)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The product tile at an entry, over the extended reals -/

open Idealize.ShloMosaic.ValueIdx
open scoped BigOperators

theorem hz : (![0, 0] : Fin 2 → Nat) = fun _ => 0 := funext fun a => by fin_cases a <;> rfl

/-- Entry (p, q) of the output tile is the sum over k of e[p, k] * w[k, q]. -/
theorem outTile_apply (e : Vec Ideal S1024x128 .bf16) (w : Vec Ideal S128x4096 .f32) (p : Fin 1024) (q : Fin 4096) :
    outTile e w (ix2 p q) = ∑ k : Fin 128, e (ix2 p k) * w (ix2 k q) := by
  unfold outTile
  rw [View.canon_unit_zero hz]
  simp only [View.ld_unit_zero (S := S1024x128) hz, View.ld_unit_zero (S := S128x4096) hz]
  unfold k0_pay1
  refine (Cert.Lib.DotCols.matmul_cols_apply (M := 1024) (K := 128) (N := 4096) dot_S1024x128_S128x4096_S1024x4096_1_0_0_1_n_n rfl none
    (shapeCast S1024x128 e shapeCasts_S1024x128_S1024x128) (truncf .bf16 w bitsLt_bf16_f32) p q).trans ?_
  rw [shapeCast_self]
  rfl

/-- The columns of the output tile that a write-back moves read only the columns of the weights' buffer that a
    fetch lands: two weights' buffers that agree there give the same written-back part. -/
theorem cut_outTile (i : grid0.Coords) (e : Vec Ideal S1024x128 .bf16) (w w' : Vec Ideal S128x4096 .f32)
    (hw : ∀ (k : Fin 128) (q : Fin 4096), q.val < win0_2.xsize i 1 → w (ix2 k q) = w' (ix2 k q)) :
    win0_2.cut i (outTile e w) = win0_2.cut i (outTile e w') := by
  funext j
  show outTile e w (win0_2.xinj i j) = outTile e w' (win0_2.xinj i j)
  have hx : win0_2.xinj i j
      = ix2 (⟨(j 0).val, Nat.lt_of_lt_of_le (j 0).isLt (win0_2.xsize_le i 0)⟩ : Fin 1024)
          (⟨(j 1).val, Nat.lt_of_lt_of_le (j 1).isLt (win0_2.xsize_le i 1)⟩ : Fin 4096) :=
    funext fun a => Fin.ext (by match a with | ⟨0, _⟩ => rfl | ⟨1, _⟩ => rfl)
  rw [hx, outTile_apply, outTile_apply]
  exact Finset.sum_congr rfl fun k _ => by rw [hw k _ (j 1).isLt]

/-- A weights' buffer filled from a fetched tile holds, on the columns inside the array, the tile, whatever it held
    before: all 128 rows are moved, and the columns moved are the output tile's. -/
theorem moved_inside (i : grid0.Coords) (k : Fin 128) (q : Fin 4096) (hq : q.val < win0_2.xsize i 1) :
    win0_1.moved i (ix2 k q) = true :=
  (win0_1.moved_iff i _).mpr fun a => by
    match a with
    | ⟨0, _⟩ => exact k.isLt
    | ⟨1, _⟩ => exact hq

theorem fill_inside (i : grid0.Coords) (d d' : S128x4096.Idx → Elt Ideal .f32) (g : (win0_1.xblock i).Idx → Elt Ideal .f32)
    (k : Fin 128) (q : Fin 4096) (hq : q.val < win0_2.xsize i 1) :
    win0_1.fill i d g (ix2 k q) = win0_1.fill i d' g (ix2 k q) := by
  unfold Window.fill
  rw [dif_pos (moved_inside i k q hq), dif_pos (moved_inside i k q hq)]

/-! ## The proof data, every window named -/

variable (mI : (ℓ : Loc nD τ sig) → Buf (Elt Ideal) ℓ)

/-- The weights' tile at point `t` filled out, past the array's last column, with the zero word. -/
def wtsTile (c : Dev nD) (t : Fin cfg0.N) : S128x4096.Idx → Elt Ideal .f32 :=
  win0_1.fill (grid0.coords t) (fun _ => (0 : EReal)) (iblk mI c 1 t)

/-- The proof data of the one pipeline on core `c`: the arrays as the region finds them; after the body the
    embeddings' buffer at its tile, the weights' at its tile filled out, the output's at their product; the class
    invariant; nothing owed; full shares. -/
def dats (_ : Fin 1) (c : Dev nD) : Dat τ (Elt Ideal) Unit ℕ (UR sig nD τ) ℕ cfg0 c where
  A w := V mI c (Pipeline.arrRef spec0 w)
  after w t := match w with
    | ⟨0, _⟩ => iblk mI c 0 t
    | ⟨1, _⟩ => wtsTile mI c t
    | ⟨2, _⟩ => outTile (iblk mI c 0 t) (wtsTile mI c t)
  Φ _ := Pipeline.ΦA spec0 c
  q _ := fullShare
  owed _ := 0

theorem A_eq (c : Dev nD) (w : Fin cfg0.W) : (dats mI 0 c).A w = V mI c (Pipeline.arrRef spec0 w) := by
  dsimp only [dats]

theorem after0_0 (c : Dev nD) (t : Fin cfg0.N) : (dats mI 0 c).after 0 t = iblk mI c 0 t := by dsimp only [dats]
theorem after0_1 (c : Dev nD) (t : Fin cfg0.N) : (dats mI 0 c).after 1 t = wtsTile mI c t := by dsimp only [dats]
theorem after0_2 (c : Dev nD) (t : Fin cfg0.N) :
    (dats mI 0 c).after 2 t = outTile (iblk mI c 0 t) (wtsTile mI c t) := by dsimp only [dats]

/-- The embeddings' buffer holds its tile at every point, fetched there or not. -/
theorem before0_0 (c : Dev nD) (t : Fin cfg0.N) (d) : (dats mI 0 c).before 0 t d = iblk mI c 0 t :=
  before0_0_of mI (dats mI 0 c) (A_eq mI c 0) (after0_0 mI c) t d

/-- How the weights' tile is cut at the array's end depends on the point only through the tile's column index. -/
theorem clip_of_index (t t' : Fin cfg0.N) (h : (cfg0.win 1).index t = (cfg0.win 1).index t') :
    (cfg0.win 1).clip (cfg0.grid.coords t) = (cfg0.win 1).clip (cfg0.grid.coords t') := by
  funext a
  show Pipeline.Clip.of (cc0_transform_1 (grid0.coords t) a) (S128x4096.size a) (S128x50257.size a)
    = Pipeline.Clip.of (cc0_transform_1 (grid0.coords t') a) (S128x4096.size a) (S128x50257.size a)
  rw [show cc0_transform_1 (grid0.coords t) = cc0_transform_1 (grid0.coords t') from h]

/-- The weights' buffer holds, on the columns inside the array, its tile at every point, fetched there or not (the
    four row tiles of one column tile share one fetch), and `d` past the array's end. -/
theorem before0_1 (c : Dev nD) (t : Fin cfg0.N) (d) :
    (dats mI 0 c).before 1 t d = win0_1.fill (grid0.coords t) d (iblk mI c 1 t) :=
  ((dats mI 0 c).before_in_eq_fetched 1 rfl (fun _ => rfl) (clip_of_index)
    (fun t => by rw [after0_1]; unfold wtsTile Dat.blockOf iblk; rw [A_eq]; exact win0_1.cut_fill _ _ _) t d).trans
    (by unfold Dat.fetched Dat.blockOf iblk; rw [A_eq]; try rfl)

/-! ## The body obligation, at a generic point -/

def bodyPre (c : Dev nD) (t : Fin cfg0.N) : sProp (MT nD τ sig Unit (Elt Ideal) ℕ (UR sig nD τ) ℕ) :=
  iprop((dats mI 0 c).Φ t.castSucc ∗ (dats mI 0 c).owesAt () t.castSucc
    ∗ (∃ d, owns (c : Thread nD τ) (st0_0 t) fullShare ((dats mI 0 c).before 0 t d))
    ∗ (∃ d, owns (c : Thread nD τ) (st0_1 t) fullShare ((dats mI 0 c).before 1 t d))
    ∗ (∃ d, owns (c : Thread nD τ) (st0_2 t) fullShare ((dats mI 0 c).before 2 t d)))

/-- What the body returns: the two clipped windows' buffers stated on the columns inside the array only. -/
def bodyPost (c : Dev nD) (t : Fin cfg0.N) : sProp (MT nD τ sig Unit (Elt Ideal) ℕ (UR sig nD τ) ℕ) :=
  iprop((dats mI 0 c).Φ t.succ ∗ (dats mI 0 c).owesAt () t.succ
    ∗ owns (c : Thread nD τ) (st0_0 t) fullShare ((dats mI 0 c).after 0 t)
    ∗ (∃ d, owns (c : Thread nD τ) (st0_1 t) fullShare (win0_1.fill (grid0.coords t) d (win0_1.cut (grid0.coords t) ((dats mI 0 c).after 1 t))))
    ∗ (∃ d, owns (c : Thread nD τ) (st0_2 t) fullShare (win0_2.fill (grid0.coords t) d (win0_2.cut (grid0.coords t) ((dats mI 0 c).after 2 t)))))

theorem sound_body (c : Dev nD) (t : Fin cfg0.N) :
    bodyPre mI c t ⊢ wp frame (wpE (defs₀ (F := Ideal)) Variants.none c none) Set.univ (bodyAt0 t) (fun _ => bodyPost mI c t) := by
  unfold bodyPre bodyPost bodyAt0
  simp only [before0_0, before0_1]
  rw [show (dats mI 0 c).Φ t.succ = (dats mI 0 c).Φ t.castSucc from rfl,
    show (dats mI 0 c).owesAt () t.succ = (dats mI 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk mI c 0 t) (win0_1.fill (grid0.coords t) d1 (iblk mI c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win0_1.cut (grid0.coords t) (wtsTile mI c t) = iblk mI c 1 t from win0_1.cut_fill _ _ _]
    iexact H1
  · iexists outTile (iblk mI c 0 t) (win0_1.fill (grid0.coords t) d1 (iblk mI c 1 t))
    have h := win0_2.fill_congr_cut (grid0.coords t) (cut_outTile (grid0.coords t) (iblk mI c 0 t)
      (win0_1.fill (grid0.coords t) d1 (iblk mI c 1 t)) (wtsTile mI c t)
      (fun k q hq => fill_inside (grid0.coords t) d1 (fun _ => (0 : EReal)) (iblk mI c 1 t) k q hq))
    rw [h]
    iexact H2

/-- The library's body obligation, the clipped windows loose. -/
theorem body_obligation (c : Dev nD) : BodyObligationLoose (dats mI 0 c) (defs₀ (F := Ideal)) Variants.none () Set.univ := fun t => by
  rw [bigSep_W0, bigSep_W0]
  exact sound_body mI c t

/-! ## The run -/

set_option backward.isDefEq.respectTransparency.types false in
/-- Every weakly fair execution of @main terminates, every array of the pipeline at what the write-backs leave and
    every other unscoped buffer as the region found it. -/
theorem run_main : θ_run defs (onTc (τ := τ) (main (F := Ideal))) (s₀ mI ρ) (Pipeline.FramePost cfgs (dats mI) 0 (V mI)) :=
  Pipeline.θ_run_frame cfgs (dats mI) (0 : Fin 1) launch0 defs₀ Variants.none mI ρ main
    (hbody := fun c => body_obligation mI c) (hshare := fun c => (dats mI 0 c).share_full fun _ => rfl)
    (howed := fun _ _ => rfl) (V := V mI) (hmain := hmain mI Variants.none) (hA := A_eq mI) (hΦ := fun _ _ => rfl)

/-- The frame: the three argument arrays end as launched. -/
theorem frame : θ_run defs (onTc (τ := τ) (main (F := Ideal))) ⟨mI, fun _ => 0, ρ⟩ (fun r => ∀ c : Dev nD,
      r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)) :=
  frame_of mI ρ (dats mI) (A_eq mI) (run_main ρ mI)

end Cert.KernelIdeal.Tile

end
-- ==== Proof.Logits.lean ====
/-
  The result both programs compute, as one function of two arrays.

  For a 4096 x 128 array E (one bag-summed embedding per row) and the 128 x 50257 projection weights W, the logits are
  the matrix product: entry (p, q) is the sum over the 128 embedding coordinates k of E[p, k] * W[k, q]. Over the
  extended reals this sum is taken as it stands, whatever its terms: nothing here needs them finite.
-/
import Idealize.ShloMosaic.PureOps.Ideal
import Idealize.ShloMosaic.Lib.ValueIdx

noncomputable section

open scoped BigOperators

namespace Cert.Logits

open Idealize.ShloMosaic Idealize.ShloMosaic.ValueIdx

/-- Entry (p, q) of the logits: the sum over k of E[p, k] * W[k, q]. -/
def rowsTimes (E : (⟨2, ![4096, 128]⟩ : Shape).Idx → EReal) (W : (⟨2, ![128, 50257]⟩ : Shape).Idx → EReal) :
    (⟨2, ![4096, 50257]⟩ : Shape).Idx → EReal :=
  fun i => ∑ k : Fin 128, E (ix2 (⟨(i 0).val, (i 0).isLt⟩ : Fin 4096) k) * W (ix2 k (⟨(i 1).val, (i 1).isLt⟩ : Fin 50257))

theorem rowsTimes_apply (E : (⟨2, ![4096, 128]⟩ : Shape).Idx → EReal) (W : (⟨2, ![128, 50257]⟩ : Shape).Idx → EReal)
    (p : Fin 4096) (q : Fin 50257) : rowsTimes E W (ix2 p q) = ∑ k : Fin 128, E (ix2 p k) * W (ix2 k q) := rfl

end Cert.Logits

end
-- ==== Proof.IdealWhole.lean ====
/-
  From tiles to the whole array: what the idealized kernel leaves in the logits.

  Grid point t is column tile t / 4 and row tile t % 4. Its embeddings' tile is rows 1024 (t % 4) .. of all 128 columns,
  its weights' tile all 128 rows of columns 4096 (t / 4) .., and the output tile it writes back is rows 1024 (t % 4) ..
  by columns 4096 (t / 4) .. — 4096 of them for the first twelve column tiles, 1105 for the thirteenth, which ends at
  the array's last column 50256. Entry (p, q) of that output tile is the sum over k of the embeddings' tile at (p, k) times
  the weights' tile at (k, q), and q is a column the fetch landed; so what is written back is the same rectangle of the
  product of the two whole arrays. Every entry (r, s) of the logits lies in the tile of the point 4 (s / 4096) + r / 1024,
  so the array ends holding that product everywhere.
-/
import proofs.«168114_j27264452395031_2_alg».proof.Proof.IdealTile
import proofs.«168114_j27264452395031_2_alg».proof.Proof.Logits

set_option maxRecDepth 16384

noncomputable section

namespace Cert.KernelIdeal.Whole

open Cert.KernelIdeal Cert.KernelIdeal.Gen Cert.KernelIdeal.Tile Cert.Logits
open Idealize.ShloMosaic Idealize.ShloMosaic.TcCoe Idealize.ShloMosaic.ValueIdx
open Idealize.SL.Sem
open Idealize.ShloMosaic.Pipeline (Dat Cfg Window)
open scoped BigOperators

/-! ## The schedule, decided over the 52 grid points -/

/-- The three windows' tile indices at a point, and how many rows and columns of the output tile a write-back moves. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) = t.val % 4 ∧ win0_2.index t (1 : Fin 2) = t.val / 4
    ∧ win0_2.xsize (grid0.coords t) (0 : Fin 2) = 1024
    ∧ (t.val / 4 < 12 → win0_2.xsize (grid0.coords t) (1 : Fin 2) = 4096)
    ∧ (t.val / 4 = 12 → win0_2.xsize (grid0.coords t) (1 : Fin 2) = 1105) :=
  (by decide +kernel : ∀ t : Fin grid0.N, _)

/-! ## One written-back entry -/

/-- The entry of the output tile that a write-back at point `t` moves to the array's index `emb j` is the logits'
    entry there, for any two arrays the tiles are read off and whatever the weights' buffer held past the array's end. -/
theorem tile_entry (t : Fin cfg0.N) (Emb : S4096x128.Idx → EReal) (Wts : S128x50257.Idx → EReal)
    (d : S128x4096.Idx → EReal) (j : (win0_2.xblock (grid0.coords t)).Idx) :
    outTile ((win0_0.blk t).view.read (Elt Ideal) Emb)
        (win0_1.fill (grid0.coords t) d ((win0_1.blk t).view.read (Elt Ideal) Wts)) (win0_2.xinj (grid0.coords t) j)
      = rowsTimes Emb Wts ((win0_2.blk t).view.emb j) := by
  obtain ⟨e0, e1, e2, e3, -, -, -, -, -⟩ := idx_facts t
  have hx : win0_2.xinj (grid0.coords t) j
      = ix2 (⟨(j 0).val, Nat.lt_of_lt_of_le (j 0).isLt (win0_2.xsize_le (grid0.coords t) 0)⟩ : Fin 1024)
          (⟨(j 1).val, Nat.lt_of_lt_of_le (j 1).isLt (win0_2.xsize_le (grid0.coords t) 1)⟩ : Fin 4096) :=
    funext fun a => Fin.ext (by match a with | ⟨0, _⟩ => rfl | ⟨1, _⟩ => rfl)
  rw [hx, outTile_apply]
  unfold rowsTimes
  refine Finset.sum_congr rfl fun k _ => ?_
  have hq : (j 1).val < win0_2.xsize (grid0.coords t) 1 := (j 1).isLt
  have hf : win0_1.fill (grid0.coords t) d ((win0_1.blk t).view.read (Elt Ideal) Wts)
        (ix2 k (⟨(j 1).val, Nat.lt_of_lt_of_le (j 1).isLt (win0_2.xsize_le (grid0.coords t) 1)⟩ : Fin 4096))
      = (win0_1.blk t).view.read (Elt Ideal) Wts (fun a => ⟨(ix2 k (⟨(j 1).val, Nat.lt_of_lt_of_le (j 1).isLt (win0_2.xsize_le (grid0.coords t) 1)⟩ : Fin 4096) a).val,
          (win0_1.moved_iff (grid0.coords t) _).mp (moved_inside (grid0.coords t) k _ hq) a⟩) := by
    unfold Window.fill; rw [dif_pos (moved_inside (grid0.coords t) k _ hq)]
  rw [hf]
  refine congrArg₂ (· * ·) (congrArg Emb ?_) (congrArg Wts ?_)
  · funext a; apply Fin.ext
    match a with
    | ⟨0, _⟩ =>
      show win0_0.index t (0 : Fin 2) * 1024 + 1 * (j 0).val = win0_2.index t (0 : Fin 2) * 1024 + 1 * (j 0).val
      rw [e0]
    | ⟨1, _⟩ =>
      show win0_0.index t (1 : Fin 2) * 128 + 1 * k.val = k.val
      rw [e1]; omega
  · funext a; apply Fin.ext
    match a with
    | ⟨0, _⟩ =>
      show win0_1.index t (0 : Fin 2) * 128 + 1 * k.val = k.val
      rw [e2]; omega
    | ⟨1, _⟩ =>
      show win0_1.index t (1 : Fin 2) * 4096 + 1 * (j 1).val = win0_2.index t (1 : Fin 2) * 4096 + 1 * (j 1).val
      rw [e3]

variable (mI : (ℓ : Loc nD τ sig) → Buf (Elt Ideal) ℓ) (ρ : Dev nD → PrngReg)

/-- What point `t` writes back is its rectangle of the product of the embeddings (as the region finds them) and the
    weights. -/
theorem flushed_eq (c : Dev nD) (t : Fin cfg0.N) :
    (dats mI 0 c).flushed 2 t = ((cfg0.win 2).blk t).view.read (Elt Ideal) (rowsTimes (V mI c main_v2) (V mI c main_arg2)) := by
  show win0_2.cut (grid0.coords t) ((dats mI 0 c).after 2 t) = _
  rw [after0_2]
  unfold wtsTile iblk
  exact funext fun j => tile_entry t (V mI c main_v2) (V mI c main_arg2) (fun _ => (0 : EReal)) j

/-! ## The tiles cover the logits -/

/-- An index of the logits is in point `t`'s written-back rectangle iff on each axis it is at or after the tile's
    start and before the start plus what the write-back moves. -/
theorem mem_blk (t : Fin cfg0.N) (i : S4096x50257.Idx) :
    i ∈ ((cfg0.win 2).blk t).view.set ↔ ∀ a : Fin 2, win0_2.index t a * S1024x4096.size a ≤ (i a).val
      ∧ (i a).val < win0_2.index t a * S1024x4096.size a + win0_2.xsize (grid0.coords t) a := by
  show i ∈ ((View.whole main_v3).slice (win0_2.rect t)).set ↔ _
  rw [View.set_slice_whole, Rect.mem_set_unit]
  exact Iff.rfl

/-- Entry (r, s) lies in the rectangle of the point 4 (s / 4096) + r / 1024. -/
theorem covered (i : S4096x50257.Idx) :
    ∃ t : Fin cfg0.N, (cfg0.win 2).flush t = true ∧ i ∈ ((cfg0.win 2).blk t).view.set := by
  have hi0 : (i 0).val < 4096 := (i 0).isLt
  have hi1 : (i 1).val < 50257 := (i 1).isLt
  have hN : cfg0.N = 52 := N_0
  have hlt : (i 1).val / 4096 * 4 + (i 0).val / 1024 < cfg0.N := by rw [hN]; omega
  refine ⟨⟨(i 1).val / 4096 * 4 + (i 0).val / 1024, hlt⟩, flush0_2 _, ?_⟩
  obtain ⟨-, -, -, -, e4, e5, x0, x1, x2⟩ := idx_facts ⟨(i 1).val / 4096 * 4 + (i 0).val / 1024, hlt⟩
  have hv : (⟨(i 1).val / 4096 * 4 + (i 0).val / 1024, hlt⟩ : Fin cfg0.N).val = (i 1).val / 4096 * 4 + (i 0).val / 1024 := rfl
  rw [hv] at e4 e5 x1 x2
  rw [mem_blk]
  intro a
  match a with
  | ⟨0, _⟩ =>
    show win0_2.index _ (0 : Fin 2) * 1024 ≤ (i 0).val ∧ (i 0).val < win0_2.index _ (0 : Fin 2) * 1024 + win0_2.xsize _ (0 : Fin 2)
    rw [e4, x0]; omega
  | ⟨1, _⟩ =>
    show win0_2.index _ (1 : Fin 2) * 4096 ≤ (i 1).val ∧ (i 1).val < win0_2.index _ (1 : Fin 2) * 4096 + win0_2.xsize _ (1 : Fin 2)
    rw [e5]
    by_cases h12 : ((i 1).val / 4096 * 4 + (i 0).val / 1024) / 4 < 12
    · rw [x1 h12]; omega
    · rw [x2 (by omega)]; omega

/-- The logits after the run: the product of the embeddings as the region finds them and the weights. -/
theorem final (c : Dev nD) : (dats mI 0 c).arrAt 2 cfg0.N = rowsTimes (V mI c main_v2) (V mI c main_arg2) :=
  (dats mI 0 c).arrAt_eq_of_cover 2 _ (fun t _ => flushed_eq mI c t) covered

/-! ## The run, read -/

/-- Every weakly fair execution of the idealized kernel terminates with the logits at the product of the embeddings as
    the region finds them and the launched weights, and the three argument arrays as launched. -/
theorem run : θ_run defs (onTc (τ := τ) (main (F := Ideal))) ⟨mI, fun _ => 0, ρ⟩ fun r => ∀ c : Dev nD,
      r.2.mem ((c.tc : Thread nD τ).loc main_v3) = rowsTimes (V mI c main_v2) (mI ((c.tc : Thread nD τ).loc main_arg2))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2) :=
  (θ_run defs _ _).mono (fun _ h c =>
    ⟨((h c).1 2).trans ((final mI c).trans (congrArg (rowsTimes (V mI c main_v2)) (V_main_arg2 mI c))),
      ((h c).2 main_arg0 (Pipeline.mem_restRefs_of main_arg0 (by decide) (by decide))).trans (V_main_arg0 mI c),
      ((h c).2 main_arg1 (Pipeline.mem_restRefs_of main_arg1 (by decide) (by decide))).trans (V_main_arg1 mI c),
      ((h c).1 1).trans (((dats mI 0 c).arrAt_in 1 rfl _).trans ((A_eq mI c 1).trans (V_main_arg2 mI c)))⟩)
    (run_main ρ mI)

end Cert.KernelIdeal.Whole

end
-- ==== Proof.RefLine.lean ====
/-
  The reference program as a straight line, and its run.

  The reference gathers, for each of the 4096 rows, the 8 rows of the embedding table its indices name (an index below
  zero is first shifted up by the table's height; a row whose index is still outside the table reads as the quiet-NaN
  word), sums the 8 gathered rows, and multiplies the 4096 x 128 result by the 128 x 50257 projection weights. The gather
  is an outlined function of 23 operations; with the three operations of the entry function that makes a straight line
  of 26, each writing a buffer of its own and none writing an argument. So every weakly fair execution ends with every
  buffer at the fold of the 26 results over the launch contents, and the three argument arrays as they began.
-/
import proofs.«168114_j27264452395031_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The 23 operations of the gather, then the zero, the sum over the 8 context positions and the product. -/
abbrev ops : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S4096x8, .i32⟩) (broadcastInDim S4096x8 ![] bcast_S_S4096x8),
    StableHlo.TRef.binary (.of main_arg0 : StableHlo.TRef sig ⟨S4096x8, .i32⟩) (.of main_call0_v0 : StableHlo.TRef sig ⟨S4096x8, .i32⟩) (.of main_call0_v1 : StableHlo.TRef sig ⟨S4096x8, .i1⟩) (cmpi .slt),
    StableHlo.TRef.nullary (.of main_call0_c_0 : StableHlo.TRef sig ⟨S_, .i32⟩) (constantI S_ 32 50257#32),
    StableHlo.TRef.unary (.of main_call0_c_0 : StableHlo.TRef sig ⟨S_, .i32⟩) (.of main_call0_v2 : StableHlo.TRef sig ⟨S4096x8, .i32⟩) (broadcastInDim S4096x8 ![] bcast_S_S4096x8),
    StableHlo.TRef.binary (.of main_arg0 : StableHlo.TRef sig ⟨S4096x8, .i32⟩) (.of main_call0_v2 : StableHlo.TRef sig ⟨S4096x8, .i32⟩) (.of main_call0_v3 : StableHlo.TRef sig ⟨S4096x8, .i32⟩) addi,
    StableHlo.TRef.ternary (.of main_call0_v1 : StableHlo.TRef sig ⟨S4096x8, .i1⟩) (.of main_call0_v3 : StableHlo.TRef sig ⟨S4096x8, .i32⟩) (.of main_arg0 : StableHlo.TRef sig ⟨S4096x8, .i32⟩) (.of main_call0_v4 : StableHlo.TRef sig ⟨S4096x8, .i32⟩) select,
    StableHlo.TRef.unary main_call0_call0.v0 (.of main_call0_v5 : StableHlo.TRef sig ⟨S4096x8x1, .i32⟩) (broadcastInDim S4096x8x1 ![0, 1] bcast_S4096x8_S4096x8x1_0_1),
    StableHlo.TRef.nullary (.of main_call0_c_1 : StableHlo.TRef sig ⟨S1, .i32⟩) (constantI S1 32 50256#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S4096x8x1, .i32⟩) (broadcastInDim S4096x8x1 ![] bcast_S_S4096x8x1),
    StableHlo.TRef.binary (.of main_call0_v5 : StableHlo.TRef sig ⟨S4096x8x1, .i32⟩) (.of main_call0_v6 : StableHlo.TRef sig ⟨S4096x8x1, .i32⟩) (.of main_call0_v7 : StableHlo.TRef sig ⟨S4096x8x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S4096x8x1, .i32⟩) (broadcastInDim S4096x8x1 ![0, 1, 2] bcast_S1x1x1_S4096x8x1_0_1_2),
    StableHlo.TRef.binary (.of main_call0_v5 : StableHlo.TRef sig ⟨S4096x8x1, .i32⟩) (.of main_call0_v9 : StableHlo.TRef sig ⟨S4096x8x1, .i32⟩) (.of main_call0_v10 : StableHlo.TRef sig ⟨S4096x8x1, .i1⟩) (cmpi .sle),
    StableHlo.TRef.binary (.of main_call0_v7 : StableHlo.TRef sig ⟨S4096x8x1, .i1⟩) (.of main_call0_v10 : StableHlo.TRef sig ⟨S4096x8x1, .i1⟩) (.of main_call0_v11 : StableHlo.TRef sig ⟨S4096x8x1, .i1⟩) andi,
    StableHlo.TRef.nullary (.of main_call0_c_3 : StableHlo.TRef sig ⟨S_, .i1⟩) (constantI S_ 1 1#1),
    StableHlo.TRef.binary (.of main_call0_v11 : StableHlo.TRef sig ⟨S4096x8x1, .i1⟩) (.of main_call0_c_3 : StableHlo.TRef sig ⟨S_, .i1⟩) (.of main_call0_v12 : StableHlo.TRef sig ⟨S4096x8, .i1⟩) (fun x v => Host.reduce IntOp.andi x v reducesTo_S4096x8x1_S4096x8_d2 h_S_),
    StableHlo.TRef.binary (.of main_arg1 : StableHlo.TRef sig ⟨S50257x128, .f32⟩) (.of main_call0_v5 : StableHlo.TRef sig ⟨S4096x8x1, .i32⟩) (.of main_call0_v13 : StableHlo.TRef sig ⟨S4096x8x128, .f32⟩) (fun x i => Host.gather gather_S50257x128_S4096x8x1_S4096x8x128_2_0_n_n_0_2_1128 x i),
    StableHlo.TRef.unary (.of main_call0_v12 : StableHlo.TRef sig ⟨S4096x8, .i1⟩) (.of main_call0_v14 : StableHlo.TRef sig ⟨S4096x8x128, .i1⟩) (broadcastInDim S4096x8x128 ![0, 1] bcast_S4096x8_S4096x8x128_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S4096x8x128, .f32⟩) (broadcastInDim S4096x8x128 ![] bcast_S_S4096x8x128),
    StableHlo.TRef.ternary (.of main_call0_v14 : StableHlo.TRef sig ⟨S4096x8x128, .i1⟩) (.of main_call0_v13 : StableHlo.TRef sig ⟨S4096x8x128, .f32⟩) (.of main_call0_v15 : StableHlo.TRef sig ⟨S4096x8x128, .f32⟩) (.of main_v0 : StableHlo.TRef sig ⟨S4096x8x128, .f32⟩) select,
    StableHlo.nullary main_cst (constant S_ .f32 0x00000000#32),
    StableHlo.binary main_v0 main_cst main_v1 ((fun x v => Host.reduceAdd x v reducesTo_S4096x8x128_S4096x128_d1 h_S_) : (⟨S4096x8x128, .f32⟩ : BufTy).Contents (Elt F) → (⟨S_, .f32⟩ : BufTy).Contents (Elt F) → (⟨S4096x128, .f32⟩ : BufTy).Contents (Elt F)),
    StableHlo.binary main_v1 main_arg2 main_v2 ((fun l r => Host.dotGeneral dot_S4096x128_S128x50257_S4096x50257_1_0_0_1_n_n none l r) : (⟨S4096x128, .f32⟩ : BufTy).Contents (Elt F) → (⟨S128x50257, .f32⟩ : BufTy).Contents (Elt F) → (⟨S4096x50257, .f32⟩ : BufTy).Contents (Elt F)) ]

set_option maxRecDepth 1024 in
/-- The entry function is that line: the gather's and the select's bodies unfolded at their calls, the sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., binary_bufs_sub ..⟩

/-- No operation of the line writes an argument array. -/
theorem arg0_kept (V : Valuation τ sig (Elt F)) : after ops V (main_arg0 : DevRef τ sig) = V (main_arg0 : DevRef τ sig) := by
  after_results
theorem arg1_kept (V : Valuation τ sig (Elt F)) : after ops V (main_arg1 : DevRef τ sig) = V (main_arg1 : DevRef τ sig) := by
  after_results
theorem arg2_kept (V : Valuation τ sig (Elt F)) : after ops V (main_arg2 : DevRef τ sig) = V (main_arg2 : DevRef τ sig) := by
  after_results

/-- Every weakly fair execution of the reference terminates with every buffer at the fold of the line's results over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The frame: the three argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (arg0_kept _), (h c main_arg1).trans (arg1_kept _),
    (h c main_arg2).trans (arg2_kept _)⟩) (run_main m ρ)

end Cert.ReferenceIdeal.Line

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«168114_j27264452395031_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.Bridge.lean ====
/-
  The two programs compute one array.

  Both programs start with the same 25 host operations on the same two arguments — the gather of 8 embedding rows per
  batch row (out-of-range indices included: both read them the same way) and the sum over the 8 — so whatever that
  prefix yields, it yields the same 4096 x 128 array E in both; it is never opened here. The reference then multiplies E
  by the weights W in one product. The kernel's program first changes E's float format, which on the extended reals is
  the identity, and multiplies tile by tile; the tiles piece together to the same product. Entry (p, q) is in both the
  sum over the 128 coordinates k of E[p, k] * W[k, q], taken in the same order: no law of arithmetic is needed, and
  so no finiteness of the inputs.
-/
import proofs.«168114_j27264452395031_2_alg».proof.Proof.Gen.KernelIdeal.Launch
import proofs.«168114_j27264452395031_2_alg».proof.Proof.Logits
import proofs.«168114_j27264452395031_2_alg».proof.Proof.RefLine
import proofs.«168114_j27264452395031_2_alg».proof.Proof.LibDotColsHost

set_option maxRecDepth 16384

noncomputable section

namespace Cert.Bridge

open Idealize.ShloMosaic Idealize.ShloMosaic.TcCoe Idealize.ShloMosaic.ValueIdx Idealize.ShloMosaic.StableHlo
open Idealize.SL.Sem Cert.Logits
open scoped BigOperators

/-- The kernel's program's host operations before its region, as one line. -/
abbrev kernelLine : List (HloOp Cert.KernelIdeal.τ Cert.KernelIdeal.sig (Elt Ideal)) :=
  List.flatten [Cert.KernelIdeal.Gen.hostOps0, Cert.KernelIdeal.Gen.hostOps0_1]

section
variable (VR : Valuation Cert.ReferenceIdeal.τ Cert.ReferenceIdeal.sig (Elt Ideal))
  (VK : Valuation Cert.KernelIdeal.τ Cert.KernelIdeal.sig (Elt Ideal))

set_option maxHeartbeats 4000000 in
attribute [local irreducible] Host.reduce Host.gather Host.reduceAdd in
/-- From launch contents that agree on the three arguments, the reference's logits are the one product of the
    kernel's program's bag-summed embeddings (before their change of format) and the weights: the 25 operations
    before the product are the same operations of the same two arguments. -/
theorem ref_product
    (h0 : (VR (Cert.ReferenceIdeal.main_arg0 : DevRef Cert.ReferenceIdeal.τ Cert.ReferenceIdeal.sig) : Cert.KernelIdeal.S4096x8.Idx → BitVec 32) = VK (Cert.KernelIdeal.main_arg0 : DevRef Cert.KernelIdeal.τ Cert.KernelIdeal.sig))
    (h1 : (VR (Cert.ReferenceIdeal.main_arg1 : DevRef Cert.ReferenceIdeal.τ Cert.ReferenceIdeal.sig) : Cert.KernelIdeal.S50257x128.Idx → EReal) = VK (Cert.KernelIdeal.main_arg1 : DevRef Cert.KernelIdeal.τ Cert.KernelIdeal.sig))
    (h2 : (VR (Cert.ReferenceIdeal.main_arg2 : DevRef Cert.ReferenceIdeal.τ Cert.ReferenceIdeal.sig) : Cert.KernelIdeal.S128x50257.Idx → EReal) = VK (Cert.KernelIdeal.main_arg2 : DevRef Cert.KernelIdeal.τ Cert.KernelIdeal.sig)) :
    (after (Cert.ReferenceIdeal.Line.ops (F := Ideal)) VR (Cert.ReferenceIdeal.main_v2 : DevRef Cert.ReferenceIdeal.τ Cert.ReferenceIdeal.sig) : Cert.KernelIdeal.S4096x50257.Idx → EReal)
      = Host.dotGeneral (F := Ideal) (φ₁ := .f32) (φ₂ := .f32) Cert.ReferenceIdeal.dot_S4096x128_S128x50257_S4096x50257_1_0_0_1_n_n none
          (after kernelLine VK (Cert.KernelIdeal.main_v1 : DevRef Cert.KernelIdeal.τ Cert.KernelIdeal.sig) : Cert.KernelIdeal.S4096x128.Idx → EReal)
          (VK (Cert.KernelIdeal.main_arg2 : DevRef Cert.KernelIdeal.τ Cert.KernelIdeal.sig)) := by
  simp only [kernelLine, Cert.KernelIdeal.Gen.hostOps0, Cert.KernelIdeal.Gen.hostOps0_1, List.flatten_cons, List.flatten_nil,
    List.append_nil, List.cons_append, List.nil_append]
  after_results_simp
  rw [h0, h1, h2]
  rfl

set_option maxHeartbeats 4000000 in
/-- The change of float format after the sum is the identity on the extended reals. -/
theorem format_idle :
    (after kernelLine VK (Cert.KernelIdeal.main_v2 : DevRef Cert.KernelIdeal.τ Cert.KernelIdeal.sig) : Cert.KernelIdeal.S4096x128.Idx → EReal)
      = (after kernelLine VK (Cert.KernelIdeal.main_v1 : DevRef Cert.KernelIdeal.τ Cert.KernelIdeal.sig) : Cert.KernelIdeal.S4096x128.Idx → EReal) := by
  simp only [kernelLine, Cert.KernelIdeal.Gen.hostOps0, Cert.KernelIdeal.Gen.hostOps0_1, List.flatten_cons, List.flatten_nil,
    List.append_nil, List.cons_append, List.nil_append]
  after_results_simp
  funext i
  exact truncf_apply _ _ i

/-- So the reference's logits are `rowsTimes` of the embeddings as the kernel's region finds them and the weights. -/
theorem ref_rowsTimes
    (h0 : (VR (Cert.ReferenceIdeal.main_arg0 : DevRef Cert.ReferenceIdeal.τ Cert.ReferenceIdeal.sig) : Cert.KernelIdeal.S4096x8.Idx → BitVec 32) = VK (Cert.KernelIdeal.main_arg0 : DevRef Cert.KernelIdeal.τ Cert.KernelIdeal.sig))
    (h1 : (VR (Cert.ReferenceIdeal.main_arg1 : DevRef Cert.ReferenceIdeal.τ Cert.ReferenceIdeal.sig) : Cert.KernelIdeal.S50257x128.Idx → EReal) = VK (Cert.KernelIdeal.main_arg1 : DevRef Cert.KernelIdeal.τ Cert.KernelIdeal.sig))
    (h2 : (VR (Cert.ReferenceIdeal.main_arg2 : DevRef Cert.ReferenceIdeal.τ Cert.ReferenceIdeal.sig) : Cert.KernelIdeal.S128x50257.Idx → EReal) = VK (Cert.KernelIdeal.main_arg2 : DevRef Cert.KernelIdeal.τ Cert.KernelIdeal.sig)) :
    (after (Cert.ReferenceIdeal.Line.ops (F := Ideal)) VR (Cert.ReferenceIdeal.main_v2 : DevRef Cert.ReferenceIdeal.τ Cert.ReferenceIdeal.sig) : Cert.KernelIdeal.S4096x50257.Idx → EReal)
      = rowsTimes (after kernelLine VK (Cert.KernelIdeal.main_v2 : DevRef Cert.KernelIdeal.τ Cert.KernelIdeal.sig)) (VK (Cert.KernelIdeal.main_arg2 : DevRef Cert.KernelIdeal.τ Cert.KernelIdeal.sig)) := by
  rw [ref_product VR VK h0 h1 h2, format_idle VK]
  funext i
  obtain ⟨p, q, rfl⟩ : ∃ (p : Fin 4096) (q : Fin 50257), i = ix2 p q := ⟨i 0, i 1, eq_ix2 i⟩
  rw [rowsTimes_apply]
  exact Cert.Lib.DotColsHost.dotGeneral_cols_apply (M := 4096) (K := 128) (N := 50257)
    Cert.ReferenceIdeal.dot_S4096x128_S128x50257_S4096x50257_1_0_0_1_n_n rfl none .single _ _ p q

end

end Cert.Bridge

end
-- ==== Proof.lean ====
/-
  Bag-of-words logits: a tiled projection kernel against one matrix product.

  Both programs gather, for each of 4096 batch rows, the 8 rows of a 50257 x 128 embedding table that the row's
  indices name and sum them, giving a 4096 x 128 array E; the logits are E times the 128 x 50257 projection weights W.
  The reference multiplies once. The kernel's program changes E's float format (the identity on the extended reals) and
  runs a grid of 13 column tiles by 4 row tiles, each point multiplying a 1024 x 128 tile of E by a 128 x 4096 tile of W
  into a 1024 x 4096 tile of the logits; the thirteenth column tile overhangs the arrays by 2991 columns, which are
  neither read from W's array nor written to the logits.

  The five claims. The three frames: each program terminates without a fault and leaves the index array, the
  embedding table and the weights as launched — for the word-level kernel with nothing said about the product, for the
  idealized kernel as a by-product of naming it, for the reference because its 26 host operations write only buffers of
  their own. The idealization rewrote nothing, so there is nothing to preserve. And at the extended reals, from
  memories agreeing on the three arguments, both programs end with the logits at the same array: entry (p, q) is the
  sum over k of E[p, k] * W[k, q] in both, E the same in both because the same operations compute it from the same
  arguments. No arithmetic law joins the two sides, so the inputs' finiteness is never used.
-/
import proofs.«168114_j27264452395031_2_alg».proof.Defs
import proofs.«168114_j27264452395031_2_alg».proof.Proof.Gen.Kernel
import proofs.«168114_j27264452395031_2_alg».proof.Proof.Gen.KernelIdeal
import proofs.«168114_j27264452395031_2_alg».proof.Proof.Gen.ReferenceIdeal
import proofs.«168114_j27264452395031_2_alg».proof.Proof.Gen.Pre_finite_inputs
import proofs.«168114_j27264452395031_2_alg».proof.Proof.KernelTile
import proofs.«168114_j27264452395031_2_alg».proof.Proof.IdealWhole
import proofs.«168114_j27264452395031_2_alg».proof.Proof.RefLine
import proofs.«168114_j27264452395031_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo Cert.Logits

theorem frame_kernel : Cert.frame_Kernel := fun m ρ _ => Cert.Kernel.Tile.frame m ρ

theorem frame_ideal : Cert.frame_KernelIdeal := fun m ρ _ => Cert.KernelIdeal.Tile.frame ρ m

theorem frame_reference : Cert.frame_ReferenceIdeal := fun m ρ _ => Cert.ReferenceIdeal.Line.frame (F := Ideal) m ρ

theorem preserves : Cert.preserves_Kernel_KernelIdeal := trivial

/-- Both runs end with the logits at the product of the bag-summed embeddings and the weights. -/
theorem algebraic : Cert.algebraic_KernelIdeal_ReferenceIdeal := by
  intro m ρ m' ρ' _ hagree
  refine ⟨fun c => rowsTimes (Cert.KernelIdeal.Gen.V m c Cert.KernelIdeal.main_v2)
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun r h c => ⟨?_, ?_, ?_, ?_⟩)
    (Cert.ReferenceIdeal.Line.run_main (F := Ideal) m' ρ')
  · refine (h c Cert.ReferenceIdeal.main_v2).trans ?_
    exact Cert.Bridge.ref_rowsTimes (launchContents m' c) (fun b => m (c, b)) (hagree c).1 (hagree c).2.1 (hagree c).2.2
  · exact (h c Cert.ReferenceIdeal.main_arg0).trans (Cert.ReferenceIdeal.Line.arg0_kept _)
  · exact (h c Cert.ReferenceIdeal.main_arg1).trans (Cert.ReferenceIdeal.Line.arg1_kept _)
  · exact (h c Cert.ReferenceIdeal.main_arg2).trans (Cert.ReferenceIdeal.Line.arg2_kept _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
